-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S1x64 : Shape := ⟨2, ![1, 64]⟩
abbrev S64x32768 : Shape := ⟨2, ![64, 32768]⟩
abbrev S512x4096 : Shape := ⟨2, ![512, 4096]⟩
abbrev S64x512 : Shape := ⟨2, ![64, 512]⟩
abbrev S64x1 : Shape := ⟨2, ![64, 1]⟩
abbrev S32768x64 : Shape := ⟨2, ![32768, 64]⟩

abbrev nBuf : Space → Nat
  | .hbm => 6
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S64x32768, .f32⟩
  | .hbm, ⟨5, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S1x64, .f32⟩
  | .local _ .vmem, ⟨4, _⟩ => ⟨S64x512, .f32⟩
  | .local _ .vmem, ⟨5, _⟩ => ⟨S64x512, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x512 : S64x1.Broadcasts S64x512
  inb_S64x512_S64x512_0_0 : ∀ a, (![0, 0] : Fin 2 → Nat) a + S64x512.size a ≤ S64x512.size a
  h_S64x512 : 0 < S64x512.numel
  transposes_S64x32768_S32768x64_1_0 : S64x32768.Transposes [1, 0] S32768x64
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x32768.size a
  hwx0_3 : ∀ i : grid0.Coords, EltTy.bits .f32 = 32 ∨ (Rect.block (s := S64x32768) S64x512.size (cc0_transform_3 i) (hinb0_3 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.BlockScore.lean ====
/-
  One grid point's arithmetic, read at an entry.

  At a grid point the body holds the whole weight table `w : [64, 4096]`, a block `x : [512, 4096]` of 512 tokens and
  the bias as a row `b : [1, 64]`. It contracts the hidden axis of `w` against the hidden axis of `x` on the matrix
  unit into a zero accumulator, turns the bias row into a column `[64, 1]`, spreads the column over the 512 tokens and
  adds. So entry `(e, j)` of the `[64, 512]` block it stores is `(∑ k, w[e, k] · x[j, k]) + b[0, e]`:
  `payload_ix2`. The steps are the matrix product as a plain sum over the one contracted axis (`matmul_ix2`) and the
  bias column read back at its entry of the row (`biasColumn_ix2`).
-/
import proofs.«143037_g17806934409993_cont_sun_m_1098_18_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The matrix product's operand indices -/

/-- The weight operand is read in the output's row … -/
theorem lhs_row (i : S64x512.Idx) (q : dot_S64x4096_S512x4096_S64x512_1_1_0_0_n_n.contr.Idx) :
    (dot_S64x4096_S512x4096_S64x512_1_1_0_0_n_n.lhsIdx i q 0).val = (i 0).val := by
  unfold DotDims.lhsIdx
  rw [dif_neg (show ¬(0 : Fin S64x4096.rank) ∈ dot_S64x4096_S512x4096_S64x512_1_1_0_0_n_n.lhsBatch by decide), dif_pos (show (0 : Fin S64x4096.rank) ∈ dot_S64x4096_S512x4096_S64x512_1_1_0_0_n_n.lhsNonContracting by decide)]
  rfl
/-- … at the contracted coordinate; -/
theorem lhs_hidden (i : S64x512.Idx) (q : dot_S64x4096_S512x4096_S64x512_1_1_0_0_n_n.contr.Idx) :
    (dot_S64x4096_S512x4096_S64x512_1_1_0_0_n_n.lhsIdx i q 1).val = (q ⟨0, by decide⟩).val :=
  dot_S64x4096_S512x4096_S64x512_1_1_0_0_n_n.lhsIdx_val_of_single rfl i q
/-- the token operand is read in the row the output's COLUMN names … -/
theorem rhs_row (i : S64x512.Idx) (q : dot_S64x4096_S512x4096_S64x512_1_1_0_0_n_n.contr.Idx) :
    (dot_S64x4096_S512x4096_S64x512_1_1_0_0_n_n.rhsIdx i q 0).val = (i 1).val := by
  unfold DotDims.rhsIdx
  rw [dif_neg (show ¬(0 : Fin S512x4096.rank) ∈ dot_S64x4096_S512x4096_S64x512_1_1_0_0_n_n.rhsBatch by decide), dif_pos (show (0 : Fin S512x4096.rank) ∈ dot_S64x4096_S512x4096_S64x512_1_1_0_0_n_n.rhsNonContracting by decide)]
  rfl
/-- … at the same contracted coordinate. -/
theorem rhs_hidden (i : S64x512.Idx) (q : dot_S64x4096_S512x4096_S64x512_1_1_0_0_n_n.contr.Idx) :
    (dot_S64x4096_S512x4096_S64x512_1_1_0_0_n_n.rhsIdx i q 1).val = (q ⟨0, by decide⟩).val :=
  dot_S64x4096_S512x4096_S64x512_1_1_0_0_n_n.rhsIdx_val_of_single rfl i q

/-- The matrix unit's product into a zero accumulator, at entry `(e, j)`: row `e` of the weights against row `j` of the
    token block, summed over the hidden axis. -/
theorem matmul_ix2 (w : FVec Ideal S64x4096 .f32) (x : FVec Ideal S512x4096 .f32) (e : Fin 64) (j : Fin 512) :
    matmul dot_S64x4096_S512x4096_S64x512_1_1_0_0_n_n none w x (constant (F := Ideal) S64x512 .f32 0x00000000#32) (ix2 e j)
      = ∑ k : Fin 4096, w (ix2 e k) * x (ix2 j k) := by
  show FloatOps.matmul dot_S64x4096_S512x4096_S64x512_1_1_0_0_n_n none w x (constant (F := Ideal) S64x512 .f32 0x00000000#32) (ix2 e j) = _
  rw [Ideal.matmul_constant_zero_apply, ← Equiv.sum_comp (contrEquiv1 dot_S64x4096_S512x4096_S64x512_1_1_0_0_n_n 4096 rfl rfl).symm]
  refine Finset.sum_congr rfl fun k _ => ?_
  have hk := contrEquiv1_symm_val dot_S64x4096_S512x4096_S64x512_1_1_0_0_n_n 4096 rfl rfl k
  have el : dot_S64x4096_S512x4096_S64x512_1_1_0_0_n_n.lhsIdx (ix2 e j) ((contrEquiv1 dot_S64x4096_S512x4096_S64x512_1_1_0_0_n_n 4096 rfl rfl).symm k) = ix2 e k := funext fun a => Fin.ext (by
    match a with
    | ⟨0, _⟩ => exact lhs_row _ _
    | ⟨1, _⟩ => exact (lhs_hidden _ _).trans hk)
  have er : dot_S64x4096_S512x4096_S64x512_1_1_0_0_n_n.rhsIdx (ix2 e j) ((contrEquiv1 dot_S64x4096_S512x4096_S64x512_1_1_0_0_n_n 4096 rfl rfl).symm k) = ix2 j k := funext fun a => Fin.ext (by
    match a with
    | ⟨0, _⟩ => exact rhs_row _ _
    | ⟨1, _⟩ => exact (rhs_hidden _ _).trans hk)
  rw [el, er]

/-! ## The bias, from a row to a column spread over the tokens -/

/-- The bias row, cast to its own shape, transposed to a column and spread over the 512 tokens, reads at `(e, j)` the
    row's entry `e`. -/
theorem biasColumn_ix2 (b : FVec Ideal S1x64 .f32) (e : Fin 64) (j : Fin 512) :
    broadcastTo S64x512 (transpose S64x1 [1, 0] (shapeCast S1x64 b shapeCasts_S1x64_S1x64) transposes_S1x64_p1_0_S64x1) broadcasts_S64x1_S64x512 (ix2 e j)
      = b (ix2 0 e) := by
  rw [shapeCast_self]
  refine (broadcastTo_apply _ broadcasts_S64x1_S64x512 (ix2 e j) (ix2 e 0) (fun a => ?_)).trans ?_
  · match a with
    | ⟨0, _⟩ => show e.val = if (64 : Nat) = 1 then 0 else e.val; rw [if_neg (by decide)]
    | ⟨1, _⟩ => show (0 : Nat) = if (1 : Nat) = 1 then 0 else j.val; rw [if_pos rfl]
  · exact transpose_apply [1, 0] b transposes_S1x64_p1_0_S64x1 (ix2 e 0) (ix2 0 e) (fun a => match a with
      | ⟨0, _⟩ => rfl
      | ⟨1, _⟩ => rfl)

/-! ## The stored block -/

/-- Entry `(e, j)` of the block a grid point stores: expert `e`'s weights against the block's token `j`, plus expert
    `e`'s bias. -/
theorem payload_ix2 (w : FVec Ideal S64x4096 .f32) (x : FVec Ideal S512x4096 .f32) (b : FVec Ideal S1x64 .f32) (e : Fin 64) (j : Fin 512) :
    k0_pay1 (F := Ideal) w x b (ix2 e j) = (∑ k : Fin 4096, w (ix2 e k) * x (ix2 j k)) + b (ix2 0 e) := by
  unfold k0_pay1
  show FloatOps.addf (matmul dot_S64x4096_S512x4096_S64x512_1_1_0_0_n_n none w x (constant (F := Ideal) S64x512 .f32 0x00000000#32) (ix2 e j))
      (broadcastTo S64x512 (transpose S64x1 [1, 0] (shapeCast S1x64 b shapeCasts_S1x64_S1x64) transposes_S1x64_p1_0_S64x1) broadcasts_S64x1_S64x512 (ix2 e j)) = _
  rw [matmul_ix2, biasColumn_ix2]
  rfl

end Cert.KernelIdeal.Block

end
-- ==== Proof.GateScore.lean ====
/-
  The mixture-of-experts gate as ONE function of its three argument arrays.

  For tokens `x : [32768, 4096]`, expert weights `w : [64, 4096]` and a bias `b : [64]`, the score of token `n` for
  expert `e` is `(∑ k, w[e, k] · x[n, k]) + b[e]` over the extended reals. `score` lays the scores out token-major,
  `[32768, 64]`; `scoreT` lays the same numbers out expert-major, `[64, 32768]`. The two are one function of `(n, e)`
  (`score_ix2`), and a sum of products does not care which factor is written first (`sum_mul_comm`): multiplication of
  extended reals is commutative at the infinities too, so nothing here asks the entries to be finite.
-/
import Idealize.ShloMosaic.PureOps.Ideal
import Idealize.ShloMosaic.Lib.ValueIdx

noncomputable section

open scoped BigOperators

namespace Cert.Gate

open Idealize.ShloMosaic Idealize.ShloMosaic.ValueIdx

/-- The scores, token-major: entry `(n, e)` is expert `e`'s row of `w` against token `n`'s row of `x`, plus `b[e]`. -/
def score (x : (⟨2, ![32768, 4096]⟩ : Shape).Idx → EReal) (w : (⟨2, ![64, 4096]⟩ : Shape).Idx → EReal)
    (b : (⟨1, ![64]⟩ : Shape).Idx → EReal) : (⟨2, ![32768, 64]⟩ : Shape).Idx → EReal :=
  fun i => (∑ k : Fin 4096, w (ix2 (i 1) k) * x (ix2 (i 0) k)) + b (ix1 (i 1))

/-- The same scores, expert-major: entry `(e, n)` is entry `(n, e)` of `score`. -/
def scoreT (x : (⟨2, ![32768, 4096]⟩ : Shape).Idx → EReal) (w : (⟨2, ![64, 4096]⟩ : Shape).Idx → EReal)
    (b : (⟨1, ![64]⟩ : Shape).Idx → EReal) : (⟨2, ![64, 32768]⟩ : Shape).Idx → EReal :=
  fun i => (∑ k : Fin 4096, w (ix2 (i 0) k) * x (ix2 (i 1) k)) + b (ix1 (i 0))

/-- `score` at `(n, e)` is `scoreT` at `(e, n)`. -/
theorem score_ix2 (x : (⟨2, ![32768, 4096]⟩ : Shape).Idx → EReal) (w : (⟨2, ![64, 4096]⟩ : Shape).Idx → EReal)
    (b : (⟨1, ![64]⟩ : Shape).Idx → EReal) (n : Fin 32768) (e : Fin 64) :
    score x w b (ix2 n e) = scoreT x w b (ix2 e n) := rfl

/-- `scoreT` at `(e, n)`, the sum written out. -/
theorem scoreT_ix2 (x : (⟨2, ![32768, 4096]⟩ : Shape).Idx → EReal) (w : (⟨2, ![64, 4096]⟩ : Shape).Idx → EReal)
    (b : (⟨1, ![64]⟩ : Shape).Idx → EReal) (e : Fin 64) (n : Fin 32768) :
    scoreT x w b (ix2 e n) = (∑ k : Fin 4096, w (ix2 e k) * x (ix2 n k)) + b (ix1 e) := rfl

/-- A sum of products with the factors in the other order is the same sum. -/
theorem sum_mul_comm {K : Type} [Fintype K] (f g : K → EReal) : ∑ k, f k * g k = ∑ k, g k * f k :=
  Finset.sum_congr rfl fun k _ => mul_comm (f k) (g k)

end Cert.Gate

end
-- ==== Proof.ArrayScore.lean ====
/-
  From the blocks to the array the region leaves.

  The region runs 64 grid points. Point `t` is handed the whole weight table, the whole bias row, and tokens
  `512·t … 512·t + 511` (block `t` along the token axis of `x`); it writes back the `[64, 512]` block whose columns are
  those same tokens, block `t` along the SECOND axis of the `[64, 32768]` output. So at every point the block written
  back is the restriction of ONE whole-array function, `scoreT` of the three arguments, to the point's columns
  (`flushed_eq`): entry `(e, j)` of the block is `scoreT` at `(e, 512·t + j)`, because the weight block is the table
  itself, the token block's row `j` is the array's row `512·t + j`, and the bias row is the bias argument with a unit axis
  in front (the one host operation before the region). Column `n` of the output lies in the block of point `n / 512`,
  so the 64 blocks cover the array (`covered`) and it ends holding `scoreT` (`array_eq`).
-/
import proofs.«143037_g17806934409993_cont_sun_m_1098_18_alg».proof.Proof.Gen.KernelIdeal.Frame
import proofs.«143037_g17806934409993_cont_sun_m_1098_18_alg».proof.Proof.BlockScore
import proofs.«143037_g17806934409993_cont_sun_m_1098_18_alg».proof.Proof.GateScore
import Idealize.ShloMosaic.Lib.Pipeline.Value
import Idealize.ShloMosaic.Lib.StableHlo.Run
import Idealize.ShloMosaic.Lib.ValueLayout

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- Which block each window takes at point `t`: tokens move with `t` along their first axis, the output along its
    second, the weights and the bias stay at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-! ## The three input blocks as entries of the arguments -/

/-- The bias row the region finds is the bias argument with a unit axis in front. -/
theorem biasRow_eq (c : Dev nD) :
    (V m c main_v0 : S1x64.Idx → EReal) = shapeCast S1x64 (m ((c : Thread nD τ).loc main_arg2)) shapeCasts_S64_S1x64 := by
  show StableHlo.after hostOps0 (fun b => m (c, b)) (Proc.devRef .tc main_v0) = _
  after_results
  rfl

/-- The weight block at any point is the weight table. -/
theorem weightBlock_apply (c : Dev nD) (t : Fin cfg0.N) (e : Fin 64) (k : Fin 4096) :
    (iblk m c 1 t : S64x4096.Idx → EReal) (ix2 e k) = (m ((c : Thread nD τ).loc main_arg1) : S64x4096.Idx → EReal) (ix2 e k) := by
  obtain ⟨-, -, e0, e1, -⟩ := block_indices t
  unfold iblk
  rw [View.read_apply]
  show V m c main_arg1 _ = _
  rw [V_main_arg1]
  congr 1
  funext a
  apply Fin.ext
  match a with
  | ⟨0, _⟩ => show win0_1.index t (0 : Fin 2) * 64 + 1 * e.val = e.val; omega
  | ⟨1, _⟩ => show win0_1.index t (1 : Fin 2) * 4096 + 1 * k.val = k.val; omega

/-- Row `j` of the token block at point `t` is row `512·t + j` of the tokens. -/
theorem tokenBlock_apply (c : Dev nD) (t : Fin cfg0.N) (j : Fin 512) (k : Fin 4096) (n : Fin 32768) (hn : n.val = t.val * 512 + j.val) :
    (iblk m c 0 t : S512x4096.Idx → EReal) (ix2 j k) = (m ((c : Thread nD τ).loc main_arg0) : S32768x4096.Idx → EReal) (ix2 n k) := by
  obtain ⟨e0, e1, -⟩ := block_indices t
  unfold iblk
  rw [View.read_apply]
  show V m c main_arg0 _ = _
  rw [V_main_arg0]
  congr 1
  funext a
  apply Fin.ext
  match a with
  | ⟨0, _⟩ => show win0_0.index t (0 : Fin 2) * 512 + 1 * j.val = n.val; omega
  | ⟨1, _⟩ => show win0_0.index t (1 : Fin 2) * 4096 + 1 * k.val = k.val; omega

/-- Entry `e` of the bias block at any point is entry `e` of the bias argument. -/
theorem biasBlock_apply (c : Dev nD) (t : Fin cfg0.N) (e : Fin 64) :
    (iblk m c 2 t : S1x64.Idx → EReal) (ix2 0 e) = (m ((c : Thread nD τ).loc main_arg2) : S64.Idx → EReal) (ix1 e) := by
  obtain ⟨-, -, -, -, e0, e1, -⟩ := block_indices t
  unfold iblk
  rw [View.read_apply]
  show (V m c main_v0 : S1x64.Idx → EReal) _ = _
  rw [biasRow_eq]
  refine Eq.trans (congrArg _ ?_) (shapeCast_a_1a_apply _ shapeCasts_S64_S1x64 0 e)
  funext a
  apply Fin.ext
  match a with
  | ⟨0, _⟩ => show win0_2.index t (0 : Fin 2) * 1 + 1 * 0 = 0; omega
  | ⟨1, _⟩ => show win0_2.index t (1 : Fin 2) * 64 + 1 * e.val = e.val; omega

/-! ## What a point writes back -/

/-- A point's stored block, entry by entry, in terms of the arguments: the entry at `y` of the block is `scoreT` at the
    index `i` of the output whose row is `y`'s and whose column is `512·t` plus `y`'s. -/
theorem storedBlock_apply (c : Dev nD) (t : Fin cfg0.N) (y : S64x512.Idx) (i : S64x32768.Idx)
    (h0 : (i 0).val = (y 0).val) (h1 : (i 1).val = t.val * 512 + (y 1).val) :
    k0_pay1 (F := Ideal) (iblk m c 1 t) (iblk m c 0 t) (iblk m c 2 t) y
      = Cert.Gate.scoreT (m ((c : Thread nD τ).loc main_arg0)) (m ((c : Thread nD τ).loc main_arg1)) (m ((c : Thread nD τ).loc main_arg2)) i := by
  obtain ⟨e, j, rfl⟩ : ∃ (e : Fin 64) (j : Fin 512), y = ix2 e j := ⟨y 0, y 1, eq_ix2 y⟩
  obtain ⟨e', n, rfl⟩ : ∃ (e' : Fin 64) (n : Fin 32768), i = ix2 e' n := ⟨i 0, i 1, eq_ix2 i⟩
  obtain rfl : e' = e := Fin.ext h0
  refine (Cert.KernelIdeal.Block.payload_ix2 (iblk m c 1 t) (iblk m c 0 t) (iblk m c 2 t) e' j).trans ?_
  rw [Cert.Gate.scoreT_ix2, biasBlock_apply m c t e']
  refine congrArg (· + _) (Finset.sum_congr rfl fun k _ => ?_)
  rw [weightBlock_apply m c t e' k, tokenBlock_apply m c t j k n h1]

/-- WHAT POINT `t` WRITES BACK is block `t` of `scoreT` of the three arguments. -/
theorem flushed_eq (c : Dev nD) (t : Fin cfg0.N) :
    (dats m 0 c).flushed 3 t = ((cfg0.win 3).blk t).view.read (Elt Ideal)
      (Cert.Gate.scoreT (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero zero_offsets]
  simp only [View.ld_unit_zero (S := S64x4096) zero_offsets, View.ld_unit_zero (S := S512x4096) zero_offsets, View.ld_unit_zero (S := S1x64) zero_offsets]
  obtain ⟨-, -, -, -, -, -, e0, e1⟩ := block_indices t
  funext y
  show k0_pay1 (F := Ideal) (iblk m c 1 t) (iblk m c 0 t) (iblk m c 2 t) y
    = Cert.Gate.scoreT (m ((c : Thread nD τ).loc main_arg0)) (m ((c : Thread nD τ).loc main_arg1)) (m ((c : Thread nD τ).loc main_arg2)) (((cfg0.win 3).blk t).view.emb y)
  refine storedBlock_apply m c t y (((cfg0.win 3).blk t).view.emb y) ?_ ?_
  · show win0_3.index t (0 : Fin 2) * 64 + 1 * (y 0).val = (y 0).val; omega
  · show win0_3.index t (1 : Fin 2) * 512 + 1 * (y 1).val = t.val * 512 + (y 1).val; omega

/-! ## The cover, and the array -/

/-- An index of the output is in point `t`'s block iff each coordinate is in the block's range on its axis. -/
theorem mem_block (t : Fin cfg0.N) (i : S64x32768.Idx) :
    i ∈ ((cfg0.win 3).blk t).view.set ↔ ∀ a : Fin 2, win0_3.index t a * S64x512.size a ≤ (i a).val ∧ (i a).val < win0_3.index t a * S64x512.size a + S64x512.size a := by
  show i ∈ ((View.whole main_v1).slice (win0_3.rect t)).set ↔ _
  rw [View.set_slice_whole, Rect.mem_set_unit]
  exact Iff.rfl

/-- Column `n` of the output is written back by point `n / 512`. -/
theorem covered (i : S64x32768.Idx) : ∃ t : Fin cfg0.N, (cfg0.win 3).flush t = true ∧ i ∈ ((cfg0.win 3).blk t).view.set := by
  have hN : cfg0.N = 64 := N_0
  have hi0 : (i 0).val < 64 := (i 0).isLt
  have hi1 : (i 1).val < 32768 := (i 1).isLt
  let t : Fin cfg0.N := ⟨(i 1).val / 512, by rw [hN]; omega⟩
  have htv : t.val = (i 1).val / 512 := rfl
  obtain ⟨-, -, -, -, -, -, e0, e1⟩ := block_indices t
  refine ⟨t, flush0_3 t, ?_⟩
  rw [mem_block]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 512 ≤ (i 1).val ∧ (i 1).val < win0_3.index t (1 : Fin 2) * 512 + 512; omega

/-- THE ARRAY after the region: `scoreT` of the three arguments. -/
theorem array_eq (c : Dev nD) :
    (dats m 0 c).arrAt 3 cfg0.N = Cert.Gate.scoreT (m ((c : Thread nD τ).loc main_arg0)) (m ((c : Thread nD τ).loc main_arg1)) (m ((c : Thread nD τ).loc main_arg2)) :=
  (dats m 0 c).arrAt_eq_of_cover 3 _ (fun t _ => flushed_eq m c t) covered

end Cert.KernelIdeal.Whole

end
-- ==== Proof.KernelRun.lean ====
/-
  The kernel's run, read.

  After the region the output array holds `scoreT`, the scores expert-major. The one host operation that follows
  transposes it, and the transpose of `scoreT` is `score`: entry `(n, e)` of the result is entry `(e, n)` of the array.
  So every run of the idealized kernel ends with its result at `score` of its three arguments, which it leaves unchanged.
-/
import proofs.«143037_g17806934409993_cont_sun_m_1098_18_alg».proof.Proof.ArrayScore

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- What the lines after the region find in the output array: `scoreT` of the three arguments. -/
theorem regionArray_eq (c : Dev nD) :
    (Pipeline.withArrays (cfgs 0).spec c (V0 m c) (fun w => (dats m 0 c).arrAt w (cfgs 0).N) (Proc.devRef .tc main_v1) : S64x32768.Idx → EReal)
      = Cert.Gate.scoreT (m ((c : Thread nD τ).loc main_arg0)) (m ((c : Thread nD τ).loc main_arg1)) (m ((c : Thread nD τ).loc main_arg2)) :=
  (Pipeline.withArrays_arr spec0 launch0.win.arr_inj c _ _ 3).trans (array_eq m c)

/-- The program's result, the transposed array, is `score` of the three arguments. -/
theorem result_eq (c : Dev nD) :
    (Pipeline.afterTail₀ cfgs (dats m) 0 (V0 m) [hostOps1] c main_v2 : S32768x64.Idx → EReal)
      = Cert.Gate.score (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  refine (congrArg (fun A : S64x32768.Idx → EReal => transpose S32768x64 [1, 0] A transposes_S64x32768_S32768x64_1_0) (regionArray_eq m c)).trans ?_
  funext i
  obtain ⟨n, e, rfl⟩ : ∃ (n : Fin 32768) (e : Fin 64), i = ix2 n e := ⟨i 0, i 1, eq_ix2 i⟩
  refine (transpose_apply [1, 0] _ transposes_S64x32768_S32768x64_1_0 (ix2 n e) (ix2 e n) (fun b => match b with
    | ⟨0, _⟩ => rfl
    | ⟨1, _⟩ => rfl)).trans ?_
  exact (Cert.Gate.score_ix2 _ _ _ n e).symm

/-- Every weakly fair execution of the idealized kernel terminates with its result at `score` of the three arguments
    and the arguments unchanged. -/
theorem run : θ_run defs (onTc (τ := τ) (main (F := Ideal))) ⟨m, fun _ => 0, ρ⟩ fun r => ∀ c : Dev nD,
      r.2.mem ((c.tc : Thread nD τ).loc main_v2)
        = Cert.Gate.score (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Whole

end
-- ==== Proof.ReferenceScore.lean ====
/-
  The reference computes `score`.

  The reference transposes the weights to `[4096, 64]`, multiplies the tokens `[32768, 4096]` by them with one
  `dot_general` over the hidden axis, spreads the bias over the 32768 tokens and adds. Read at entry `(n, e)` that is
  `(∑ k, x[n, k] · w[e, k]) + b[e]`: the transposed weights at `(k, e)` are the weights at `(e, k)`, and the spread
  bias at `(n, e)` is `b[e]`. It differs from `score` only in which factor of each product is written first.
-/
import proofs.«143037_g17806934409993_cont_sun_m_1098_18_alg».proof.Proof.Gen.ReferenceIdeal.Read
import proofs.«143037_g17806934409993_cont_sun_m_1098_18_alg».proof.Proof.GateScore

noncomputable section

open scoped BigOperators

namespace Cert.ReferenceIdeal.Score

open Cert.ReferenceIdeal Cert.ReferenceIdeal.Gen Cert.ReferenceIdeal.Read Idealize.ShloMosaic Idealize.ShloMosaic.ValueIdx

/-- The reference's last stage, as a function of the three arguments, is `score`. -/
theorem reference_eq (x : (⟨S32768x4096, .f32⟩ : BufTy).Contents (Elt Ideal)) (w : (⟨S64x4096, .f32⟩ : BufTy).Contents (Elt Ideal))
    (b : (⟨S64, .f32⟩ : BufTy).Contents (Elt Ideal)) :
    val_main_v4 (F := Ideal) x w b = Cert.Gate.score x w b := by
  funext i
  obtain ⟨n, e, rfl⟩ : ∃ (n : Fin 32768) (e : Fin 64), i = ix2 n e := ⟨i 0, i 1, eq_ix2 i⟩
  have hl : ∀ k : Fin 4096, lidx_main_v1 (ix2 n e) k = ix2 n k := fun k => funext fun a => Fin.ext (by
    match a with | ⟨0, _⟩ => rfl | ⟨1, _⟩ => rfl)
  have hr : ∀ k : Fin 4096, idx_main_v0 (ridx_main_v1 (ix2 n e) k) = ix2 e k := fun k => funext fun a => Fin.ext (by
    match a with | ⟨0, _⟩ => rfl | ⟨1, _⟩ => rfl)
  have hb : idx_main_v2 (idx_main_v3 (ix2 n e)) = ix1 e := funext fun a => Fin.ext (by
    match a with | ⟨0, _⟩ => rfl)
  rw [val_main_v4_apply, val_main_v1_apply, val_main_v3_apply, val_main_v2_apply]
  simp only [val_main_v0_apply, hl, hr, hb]
  show (∑ k : Fin 4096, x (ix2 n k) * w (ix2 e k)) + b (ix1 e) = (∑ k : Fin 4096, w (ix2 e k) * x (ix2 n k)) + b (ix1 e)
  rw [Cert.Gate.sum_mul_comm]

end Cert.ReferenceIdeal.Score

end
-- ==== Proof.lean ====
/-
  The mixture-of-experts gate kernel against its reference: `logits = tokens · weightsᵀ + bias`.

  The kernel runs a grid of 64 points over the 32768 tokens, 512 at a time. At each point it multiplies the whole
  `[64, 4096]` weight table by the point's `[512, 4096]` token block on the matrix unit, contracting the hidden axis of
  both, adds the bias as a column, and writes the `[64, 512]` block into the columns of a `[64, 32768]` array; the host
  then transposes that array. The reference transposes the weights, multiplies `tokens · weightsᵀ` in one product and
  adds the bias spread over the tokens. Over the extended reals both end with entry `(n, e)` at
  `(∑ k, w[e, k] · x[n, k]) + b[e]` (`Cert.Gate.score`): the kernel writes the weight first in each product and the
  reference the token, and products of extended reals commute, also at the infinities, so the inputs' finiteness is
  never used. The idealized kernel is the kernel's own text read over the extended reals (no operation was rewritten),
  so the statement relating the two is `True`.

  Modules: `GateScore` (the function `score` and its expert-major layout `scoreT`), `BlockScore` (one grid point's stored
  block at an entry), `ArrayScore` (the blocks are restrictions of `scoreT` and cover the array), `KernelRun` (the host
  transpose; the kernel's run ends at `score`), `ReferenceScore` (the reference's last stage is `score`).
-/
import proofs.«143037_g17806934409993_cont_sun_m_1098_18_alg».proof.Defs
import proofs.«143037_g17806934409993_cont_sun_m_1098_18_alg».proof.Proof.Gen.Kernel
import proofs.«143037_g17806934409993_cont_sun_m_1098_18_alg».proof.Proof.Gen.Kernel.Skeleton
import proofs.«143037_g17806934409993_cont_sun_m_1098_18_alg».proof.Proof.Gen.Kernel.Launch
import proofs.«143037_g17806934409993_cont_sun_m_1098_18_alg».proof.Proof.Gen.Kernel.Points
import proofs.«143037_g17806934409993_cont_sun_m_1098_18_alg».proof.Proof.Gen.Kernel.Frame
import proofs.«143037_g17806934409993_cont_sun_m_1098_18_alg».proof.Proof.Gen.KernelIdeal
import proofs.«143037_g17806934409993_cont_sun_m_1098_18_alg».proof.Proof.Gen.KernelIdeal.Skeleton
import proofs.«143037_g17806934409993_cont_sun_m_1098_18_alg».proof.Proof.Gen.KernelIdeal.Launch
import proofs.«143037_g17806934409993_cont_sun_m_1098_18_alg».proof.Proof.Gen.KernelIdeal.Points
import proofs.«143037_g17806934409993_cont_sun_m_1098_18_alg».proof.Proof.Gen.KernelIdeal.Frame
import proofs.«143037_g17806934409993_cont_sun_m_1098_18_alg».proof.Proof.Gen.ReferenceIdeal
import proofs.«143037_g17806934409993_cont_sun_m_1098_18_alg».proof.Proof.Gen.Pre_finite_inputs
import proofs.«143037_g17806934409993_cont_sun_m_1098_18_alg».proof.Proof.Gen.ReferenceIdeal.Run
import proofs.«143037_g17806934409993_cont_sun_m_1098_18_alg».proof.Proof.Gen.ReferenceIdeal.Read
import proofs.«143037_g17806934409993_cont_sun_m_1098_18_alg».proof.Proof.KernelRun
import proofs.«143037_g17806934409993_cont_sun_m_1098_18_alg».proof.Proof.ReferenceScore
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the three arguments, the kernel ends with its result at `score` of them and the
    reference with its result at its last stage of them, which is `score` of them. -/
theorem algebraic : Cert.algebraic_KernelIdeal_ReferenceIdeal := by
  intro m ρ m' ρ' _ hagree
  refine ⟨fun c => Cert.Gate.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Score.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
